-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S64x1 .f32) (main_arg9 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x1 .f32) (main_arg9 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S10000x64 : Shape := ⟨2, ![10000, 64]⟩
abbrev S1x1 : Shape := ⟨2, ![1, 1]⟩
abbrev S10000x1 : Shape := ⟨2, ![10000, 1]⟩

abbrev nBuf : Space → Nat
  | .hbm => 70
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x64, .f32⟩
  | .hbm, ⟨65, _⟩ => ⟨S100000x64, .f32⟩
  | .hbm, ⟨66, _⟩ => ⟨S1x64, .f32⟩
  | .hbm, ⟨67, _⟩ => ⟨S1x1, .f32⟩
  | .hbm, ⟨68, _⟩ => ⟨S100000x1, .f32⟩
  | .hbm, ⟨69, _⟩ => ⟨S100000, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S64x1, .f32⟩
  | .local _ .vmem, ⟨17, _⟩ => ⟨S1x1, .f32⟩
  | .local _ .vmem, ⟨18, _⟩ => ⟨S10000x1, .f32⟩
  | .local _ .vmem, ⟨19, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S100000x1_S100000 : S100000x1.ShapeCasts S100000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x1.size a ≤ S64x1.size a
  hwx1_5 : ∀ i : grid1.Coords, EltTy.bits .f32 = 32 ∨ (Rect.block (s := S64x1) S64x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x1.size a ≤ S100000x1.size a
  hwx1_7 : ∀ i : grid1.Coords, EltTy.bits .f32 = 32 ∨ (Rect.block (s := S100000x1) S10000x1.size (cc1_transform_7 i) (hinb1_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_v22) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S10000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S1x1 : Shape := ⟨2, ![1, 1]⟩

abbrev nBuf : Space → Nat
  | .hbm => 87
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S_, .f32⟩
  | .hbm, ⟨80, _⟩ => ⟨S100000x64, .f32⟩
  | .hbm, ⟨81, _⟩ => ⟨S100000x64, .f32⟩
  | .hbm, ⟨82, _⟩ => ⟨S100000x1, .f32⟩
  | .hbm, ⟨83, _⟩ => ⟨S1x1, .f32⟩
  | .hbm, ⟨84, _⟩ => ⟨S100000x1, .f32⟩
  | .hbm, ⟨85, _⟩ => ⟨S100000x1, .f32⟩
  | .hbm, ⟨86, _⟩ => ⟨S100000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel's run with its result NAMED.

  @main is five segments in order: host operations (the first neighbourhood mean), the first layer's kernel,
  host operations (the second mean, from the first layer's output), the second layer's kernel with the head,
  and one host reshape.  The buffer contents at the end of each segment are a fold from the launch memory
  (`Gen.W0` … `Gen.W5` of the generated frame): a host stretch applies its operations, a kernel region
  replaces its arrays by what its write-backs leave and keeps every other buffer.

  The generated frame reads the last contents `W5` only at the ten argument buffers (they end as launched).
  Here the same run is read ALSO at the result buffer: every weakly fair execution terminates, and in every
  final state the result buffer holds `W5` at that buffer, the arguments unchanged.  What `W5` is there,
  as a function of the arguments, is the business of the modules that follow.
-/
import proofs.«140884_j77498389889595_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last
    boundary's contents `W5` read at that buffer, and every argument buffer ends as launched. -/
theorem run_named : θ_run defs (onTc (τ := τ) (main (F := F))) ⟨m, fun _ => 0, ρ⟩ (fun r => ∀ c : Dev nD,
      r.2.mem ((c.tc : Thread nD τ).loc main_v47) = W5 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v47 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.Named

end
-- ==== Proof.BlockDot.lean ====
/-
  The kernels' matrix products on one block of rows, read at an index, on the extended reals.

  Each kernel body multiplies a block of 10000 rows by a small weight matrix, contracting the block's 64 columns
  with the matrix's 64 rows, into an accumulator of zeros.  At the exact reading a product into zeros is just
  the sum of the 64 products: at row `p` and column `q` it is Σₖ l[p,k]·r[k,q].  The contraction index of the
  printed dimension record is a one-axis index of extent 64; summing over it is summing over `k < 64`, and
  the record's operand indices at `(p, q)` and `k` are `(p, k)` on the left and `(k, q)` on the right.
-/
import proofs.«140884_j77498389889595_1_alg».proof.Proof.Gen.KernelIdeal
import Idealize.ShloMosaic.PureOps.Ideal.Laws
import Idealize.ShloMosaic.Lib.ValueIdx

noncomputable section

namespace Cert.KernelIdeal.Block

open Cert.KernelIdeal Cert.KernelIdeal.Gen Idealize.ShloMosaic Idealize.ShloMosaic.ValueIdx

theorem dot64_lhs0 (i : S10000x64.Idx) (κ : dot_S10000x64_S64x64_S10000x64_1_0_0_1_n_n.contr.Idx) :
    (dot_S10000x64_S64x64_S10000x64_1_0_0_1_n_n.lhsIdx i κ 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl

theorem dot64_rhs1 (i : S10000x64.Idx) (κ : dot_S10000x64_S64x64_S10000x64_1_0_0_1_n_n.contr.Idx) :
    (dot_S10000x64_S64x64_S10000x64_1_0_0_1_n_n.rhsIdx i κ 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block of rows times a 64×64 matrix into zeros, at `(p, q)`: the 64-term sum Σₖ l[p,k]·r[k,q]. -/
theorem dot64_apply (l : FVec Ideal S10000x64 .bf16) (r : FVec Ideal S64x64 .bf16) (p : Fin 10000) (q : Fin 64) :
    matmul (F := Ideal) dot_S10000x64_S64x64_S10000x64_1_0_0_1_n_n none l r (constant (F := Ideal) S10000x64 .f32 0x00000000#32) (ix2 p q)
      = ∑ k : Fin 64, l (ix2 p k) * r (ix2 k q) := by
  refine (Ideal.matmul_constant_zero_apply dot_S10000x64_S64x64_S10000x64_1_0_0_1_n_n none l r (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact dot64_lhs0 _ _
    | ⟨1, _⟩ => exact (dot_S10000x64_S64x64_S10000x64_1_0_0_1_n_n.lhsIdx_val_of_single rfl _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (dot_S10000x64_S64x64_S10000x64_1_0_0_1_n_n.rhsIdx_val_of_single rfl _ _).trans hk
    | ⟨1, _⟩ => exact dot64_rhs1 _ _)
  rw [el, er]

theorem dot1_lhs0 (i : S10000x1.Idx) (κ : dot_S10000x64_S64x1_S10000x1_1_0_0_1_n_n.contr.Idx) :
    (dot_S10000x64_S64x1_S10000x1_1_0_0_1_n_n.lhsIdx i κ 0).val = (i 0).val := by
  unfold DotDims.lhsIdx
  rw [dif_neg (show ¬(0 : Fin S10000x64.rank) ∈ dot_S10000x64_S64x1_S10000x1_1_0_0_1_n_n.lhsBatch by decide), dif_pos (show (0 : Fin S10000x64.rank) ∈ dot_S10000x64_S64x1_S10000x1_1_0_0_1_n_n.lhsNonContracting by decide)]
  rfl

theorem dot1_rhs1 (i : S10000x1.Idx) (κ : dot_S10000x64_S64x1_S10000x1_1_0_0_1_n_n.contr.Idx) :
    (dot_S10000x64_S64x1_S10000x1_1_0_0_1_n_n.rhsIdx i κ 1).val = (i 1).val := by
  unfold DotDims.rhsIdx
  rw [dif_neg (show ¬(1 : Fin S64x1.rank) ∈ dot_S10000x64_S64x1_S10000x1_1_0_0_1_n_n.rhsBatch by decide), dif_pos (show (1 : Fin S64x1.rank) ∈ dot_S10000x64_S64x1_S10000x1_1_0_0_1_n_n.rhsNonContracting by decide)]
  rfl

/-- A block of rows times a 64×1 column into zeros, at `(p, q)` (`q` the one column): Σₖ l[p,k]·r[k,q]. -/
theorem dot1_apply (l : FVec Ideal S10000x64 .bf16) (r : FVec Ideal S64x1 .bf16) (p : Fin 10000) (q : Fin 1) :
    matmul (F := Ideal) dot_S10000x64_S64x1_S10000x1_1_0_0_1_n_n none l r (constant (F := Ideal) S10000x1 .f32 0x00000000#32) (ix2 p q)
      = ∑ k : Fin 64, l (ix2 p k) * r (ix2 k q) := by
  refine (Ideal.matmul_constant_zero_apply dot_S10000x64_S64x1_S10000x1_1_0_0_1_n_n none l r (ix2 p q)).trans ?_
  rw [← Equiv.sum_comp (contrEquiv1 dot_S10000x64_S64x1_S10000x1_1_0_0_1_n_n 64 rfl rfl).symm]
  refine Finset.sum_congr rfl fun k _ => ?_
  have hk := contrEquiv1_symm_val dot_S10000x64_S64x1_S10000x1_1_0_0_1_n_n 64 rfl rfl k
  have el : dot_S10000x64_S64x1_S10000x1_1_0_0_1_n_n.lhsIdx (ix2 p q) ((contrEquiv1 dot_S10000x64_S64x1_S10000x1_1_0_0_1_n_n 64 rfl rfl).symm k) = ix2 p k := funext fun a => Fin.ext (by
    match a with
    | ⟨0, _⟩ => exact dot1_lhs0 _ _
    | ⟨1, _⟩ => exact (dot_S10000x64_S64x1_S10000x1_1_0_0_1_n_n.lhsIdx_val_of_single rfl _ _).trans hk)
  have er : dot_S10000x64_S64x1_S10000x1_1_0_0_1_n_n.rhsIdx (ix2 p q) ((contrEquiv1 dot_S10000x64_S64x1_S10000x1_1_0_0_1_n_n 64 rfl rfl).symm k) = ix2 k q := funext fun a => Fin.ext (by
    match a with
    | ⟨0, _⟩ => exact (dot_S10000x64_S64x1_S10000x1_1_0_0_1_n_n.rhsIdx_val_of_single rfl _ _).trans hk
    | ⟨1, _⟩ => exact dot1_rhs1 _ _)
  rw [el, er]

end Cert.KernelIdeal.Block

end
-- ==== Proof.Payload.lean ====
/-
  What each kernel body stores, read at one entry of its block, on the extended reals.

  The first body loads a block `a` of neighbourhood means and the matching block `x` of the table (10000 rows of
  64), the two 64×64 weight matrices and the bias row, and stores, at row `p` and column `q` of the block,

      max ( (Σₖ a[p,k]·wl[k,q] + Σₖ x[p,k]·wr[k,q]) + b[0,q] , 0 ).

  The narrowing of every operand to a 16-bit format before the products changes nothing at the exact reading,
  where a change of format is the identity; a cast of a block to its own shape is the identity; the bias row is
  repeated down the rows; the rectifier's zero is the zero word.

  The second body computes the same expression from its own operands, and then contracts the rectified row
  against the head's weight column and adds the head's scalar: at row `p` of the block it stores

      Σₖ max ( (Σⱼ a[p,j]·wl[j,k] + Σⱼ h[p,j]·wr[j,k]) + b[0,k] , 0 ) · wh[k,0] + bh[0,0].
-/
import proofs.«140884_j77498389889595_1_alg».proof.Proof.Gen.KernelIdeal.Skeleton
import proofs.«140884_j77498389889595_1_alg».proof.Proof.BlockDot
import Idealize.ShloMosaic.Lib.Pipeline.Value
import Idealize.ShloMosaic.Lib.ValueLayout

noncomputable section

namespace Cert.KernelIdeal.Payload

open Cert.KernelIdeal Cert.KernelIdeal.Gen Idealize.ShloMosaic Idealize.ShloMosaic.ValueIdx

/-- The first body's stored value at `(p, q)` of the block. -/
theorem layer_apply (v0 v3 : Vec Ideal S10000x64 .f32) (v5 v7 : Vec Ideal S64x64 .f32) (v12 : Vec Ideal S1x64 .f32)
    (p : Fin 10000) (q : Fin 64) :
    k0_pay1 (F := Ideal) v0 v3 v5 v7 v12 (ix2 p q)
      = max ((∑ k : Fin 64, v0 (ix2 p k) * v5 (ix2 k q) + ∑ k : Fin 64, v3 (ix2 p k) * v7 (ix2 k q))
          + v12 (ix2 (0 : Fin 1) q)) 0 := by
  unfold k0_pay1
  simp only [shapeCast_self, maximumf_apply, addf_apply, broadcast_apply, truncf_apply, Block.dot64_apply,
    broadcastTo_1b_ab_apply, Ideal.ofBits_def, Ideal.ofBits_zero_f32]

/-- The second body's stored value at `(p, z)` of the block (`z` the block's one column). -/
theorem head_apply (v0 v3 : Vec Ideal S10000x64 .f32) (v6 v8 : Vec Ideal S64x64 .f32) (v13 : Vec Ideal S1x64 .f32)
    (v20 : Vec Ideal S64x1 .f32) (v23 : Vec Ideal S1x1 .f32) (p : Fin 10000) (z : Fin 1) :
    k1_pay1 (F := Ideal) v0 v3 v6 v8 v13 v20 v23 (ix2 p z)
      = ∑ k : Fin 64, max ((∑ j : Fin 64, v0 (ix2 p j) * v6 (ix2 j k) + ∑ j : Fin 64, v3 (ix2 p j) * v8 (ix2 j k))
          + v13 (ix2 (0 : Fin 1) k)) 0 * v20 (ix2 k z) + v23 (ix2 (0 : Fin 1) z) := by
  unfold k1_pay1
  simp only [shapeCast_self, maximumf_apply, addf_apply, broadcast_apply, truncf_apply, Block.dot64_apply, Block.dot1_apply,
    broadcastTo_1b_ab_apply, Ideal.ofBits_def, Ideal.ofBits_zero_f32]

end Cert.KernelIdeal.Payload

end
-- ==== Proof.SageSpec.lean ====
/-
  The mathematics both programs compute, index by index, on the extended reals.

  A node table has 100000 rows of 64 features.  One layer takes a table `a` of neighbourhood means and the
  table `x` itself and returns, at row `n` and column `c`,

      max ( (Σₖ a[n,k]·wl[k,c] + Σₖ x[n,k]·wr[k,c]) + b[c] , 0 ),

  two 64-term contractions, a bias and a rectifier.  The head contracts a table against one column of
  weights and adds a scalar.  Nothing here depends on how the neighbourhood means were formed: the mean is
  the same host computation in both programs and enters only as the table `a`.

  The one law used to join the two programs is commutativity and associativity of addition: one program
  adds the bias after the second contraction, the other before it.  On the extended reals addition is a
  commutative monoid (with -∞ absorbing), so the regrouping holds at every value, infinite ones included,
  and no finiteness of the inputs is needed.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- One layer at index `(n, c)`: the two contractions summed, then the bias, then the rectifier. -/
def layer (a x : (⟨2, ![100000, 64]⟩ : Shape).Idx → EReal) (wl wr : (⟨2, ![64, 64]⟩ : Shape).Idx → EReal)
    (b : Fin 64 → EReal) : (⟨2, ![100000, 64]⟩ : Shape).Idx → EReal :=
  fun i => max ((∑ k : Fin 64, a (ix2 (n0 := 100000) (i 0) k) * wl (ix2 (n1 := 64) k (i 1))
      + ∑ k : Fin 64, x (ix2 (n0 := 100000) (i 0) k) * wr (ix2 (n1 := 64) k (i 1))) + b (i 1)) 0

/-- The head at index `(n, 0)`: the row of `h` contracted against the weight column, plus the scalar. -/
def head (h : (⟨2, ![100000, 64]⟩ : Shape).Idx → EReal) (wh : (⟨2, ![64, 1]⟩ : Shape).Idx → EReal) (bh : EReal) :
    (⟨2, ![100000, 1]⟩ : Shape).Idx → EReal :=
  fun i => ∑ k : Fin 64, h (ix2 (n0 := 100000) (i 0) k) * wh (ix2 (n1 := 1) k (i 1)) + bh

/-- Adding the bias before the second contraction or after it is the same extended real. -/
theorem bias_regroup (A B b : EReal) : (A + b) + B = (A + B) + b := add_right_comm A b B

end Cert.Sage

end
-- ==== Proof.Region1.lean ====
/-
  The second layer's kernel with the head: what its output array holds when the region is left, as one function
  of the arrays the region was entered with.

  The grid has ten points.  At point `t` the pipeline stages rows 10000·t … 10000·t + 9999 of the table of second
  neighbourhood means and of the first layer's output, and the whole of the two weight matrices, the bias row, the
  head's weight column and the head's scalar; the body forms the layer on those rows and contracts each rectified
  row against the head's column; the block of 10000 results goes back to rows 10000·t … of the one-column output.
  Each written block is a block of ONE whole-array function, the head of the layer of the entry arrays, and the
  ten blocks tile the output.
-/
import proofs.«140884_j77498389889595_1_alg».proof.Proof.Gen.KernelIdeal.Frame
import proofs.«140884_j77498389889595_1_alg».proof.Proof.Payload
import proofs.«140884_j77498389889595_1_alg».proof.Proof.SageSpec
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the ten grid points: the two row-blocked inputs and the output sit at row
    block `t`; the weights, the bias row, the head's column and its scalar are one block each. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- What grid point `t` writes back is block `t` of the head of the layer of the arrays the region was entered
    with: the body's stored value at row `p` reads row `10000·t + p` of the two tables and the whole of every
    other operand. -/
theorem flushed_eq (c : Dev nD) (t : Fin cfg1.N) :
    (dat1 V c).flushed 7 t = ((cfg1.win 7).blk t).view.read (Elt Ideal)
      (Cert.Sage.head (Cert.Sage.layer (V c main_v43) (V c main_v24) (V c main_arg5) (V c main_arg7) (fun q => V c main_v44 (ix2 (0 : Fin 1) q)))
        (V c main_arg8) (V c main_v45 (ix2 (0 : Fin 1) (0 : Fin 1)))) := by
  show (cfg1.win 7).cut (grid1.coords t) ((dat1 V c).after 7 t) = _
  rw [after1_7]
  unfold out1_7
  rw [View.canon_unit_zero hz]
  simp only [View.ld_unit_zero (S := S10000x64) hz, View.ld_unit_zero (S := S64x64) hz, View.ld_unit_zero (S := S1x64) hz,
    View.ld_unit_zero (S := S64x1) hz, View.ld_unit_zero (S := S1x1) hz]
  funext j
  obtain ⟨p, z, rfl⟩ : ∃ (p : Fin 10000) (z : Fin 1), j = ix2 p z := ⟨j 0, j 1, eq_ix2 j⟩
  refine (Payload.head_apply (iblk1 V c 0 t) (iblk1 V c 1 t) (iblk1 V c 2 t) (iblk1 V c 4 t) (iblk1 V c 3 t) (iblk1 V c 5 t)
    (iblk1 V c 6 t) p z).trans ?_
  obtain ⟨a0, a1, b0, b1, c0, c1, d0, d1, e0, e1, f0, f1, g0, g1, o0, o1⟩ := idx_facts t
  have hz1 : z.val < 1 := z.isLt
  have h0 : ∀ k : Fin 64, iblk1 V c 0 t (ix2 p k) = V c main_v43 (ix2 (n0 := 100000) ((((cfg1.win 7).blk t).view.emb (ix2 p z)) 0) k) := fun k => by
    show V c main_v43 (((cfg1.win 0).blk t).view.emb (ix2 p k)) = _
    refine congrArg _ (funext fun a => Fin.ext ?_)
    match a with
    | ⟨0, _⟩ => show win1_0.index t (0 : Fin 2) * 10000 + 1 * p.val = win1_7.index t (0 : Fin 2) * 10000 + 1 * p.val; omega
    | ⟨1, _⟩ => show win1_0.index t (1 : Fin 2) * 64 + 1 * k.val = k.val; omega
  have h1 : ∀ k : Fin 64, iblk1 V c 1 t (ix2 p k) = V c main_v24 (ix2 (n0 := 100000) ((((cfg1.win 7).blk t).view.emb (ix2 p z)) 0) k) := fun k => by
    show V c main_v24 (((cfg1.win 1).blk t).view.emb (ix2 p k)) = _
    refine congrArg _ (funext fun a => Fin.ext ?_)
    match a with
    | ⟨0, _⟩ => show win1_1.index t (0 : Fin 2) * 10000 + 1 * p.val = win1_7.index t (0 : Fin 2) * 10000 + 1 * p.val; omega
    | ⟨1, _⟩ => show win1_1.index t (1 : Fin 2) * 64 + 1 * k.val = k.val; omega
  have h2 : ∀ (j k : Fin 64), iblk1 V c 2 t (ix2 j k) = V c main_arg5 (ix2 j k) := fun j k => by
    show V c main_arg5 (((cfg1.win 2).blk t).view.emb (ix2 j k)) = _
    refine congrArg _ (funext fun a => Fin.ext ?_)
    match a with
    | ⟨0, _⟩ => show win1_2.index t (0 : Fin 2) * 64 + 1 * j.val = j.val; omega
    | ⟨1, _⟩ => show win1_2.index t (1 : Fin 2) * 64 + 1 * k.val = k.val; omega
  have h4 : ∀ (j k : Fin 64), iblk1 V c 4 t (ix2 j k) = V c main_arg7 (ix2 j k) := fun j k => by
    show V c main_arg7 (((cfg1.win 4).blk t).view.emb (ix2 j k)) = _
    refine congrArg _ (funext fun a => Fin.ext ?_)
    match a with
    | ⟨0, _⟩ => show win1_4.index t (0 : Fin 2) * 64 + 1 * j.val = j.val; omega
    | ⟨1, _⟩ => show win1_4.index t (1 : Fin 2) * 64 + 1 * k.val = k.val; omega
  have h3 : ∀ k : Fin 64, iblk1 V c 3 t (ix2 (0 : Fin 1) k) = V c main_v44 (ix2 (0 : Fin 1) k) := fun k => by
    show V c main_v44 (((cfg1.win 3).blk t).view.emb (ix2 (0 : Fin 1) k)) = _
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * k.val = k.val; omega
  have h5 : ∀ k : Fin 64, iblk1 V c 5 t (ix2 k z) = V c main_arg8 (ix2 (n1 := 1) k ((((cfg1.win 7).blk t).view.emb (ix2 p z)) 1)) := fun k => by
    show V c main_arg8 (((cfg1.win 5).blk t).view.emb (ix2 k z)) = _
    refine congrArg _ (funext fun a => Fin.ext ?_)
    match a with
    | ⟨0, _⟩ => show win1_5.index t (0 : Fin 2) * 64 + 1 * k.val = k.val; omega
    | ⟨1, _⟩ => show win1_5.index t (1 : Fin 2) * 1 + 1 * z.val = win1_7.index t (1 : Fin 2) * 1 + 1 * z.val; omega
  have h6 : iblk1 V c 6 t (ix2 (0 : Fin 1) z) = V c main_v45 (ix2 (0 : Fin 1) (0 : Fin 1)) := by
    show V c main_v45 (((cfg1.win 6).blk t).view.emb (ix2 (0 : Fin 1) z)) = _
    refine congrArg _ (funext fun a => Fin.ext ?_)
    match a with
    | ⟨0, _⟩ => show win1_6.index t (0 : Fin 2) * 1 + 1 * 0 = 0; omega
    | ⟨1, _⟩ => show win1_6.index t (1 : Fin 2) * 1 + 1 * z.val = 0; omega
  simp only [h0, h1, h2, h3, h4, h5, h6]
  rfl

/-- An index of the output array is in point `t`'s block iff each coordinate is in the block's range on its axis. -/
theorem mem_blk (t : Fin cfg1.N) (i : S100000x1.Idx) :
    i ∈ ((cfg1.win 7).blk t).view.set ↔ ∀ a : Fin 2, win1_7.index t a * S10000x1.size a ≤ (i a).val
      ∧ (i a).val < win1_7.index t a * S10000x1.size a + S10000x1.size a := by
  show i ∈ ((View.whole main_v46).slice (win1_7.rect t)).set ↔ _
  rw [View.set_slice_whole, Rect.mem_set_unit]
  exact Iff.rfl

/-- The ten blocks of 10000 rows tile the 100000 rows: row `r` is in block `r / 10000`. -/
theorem cover (i : S100000x1.Idx) :
    ∃ t : Fin cfg1.N, (cfg1.win 7).flush t = true ∧ i ∈ ((cfg1.win 7).blk t).view.set := by
  have hN : cfg1.N = 10 := N_1
  have hi0 : (i 0).val < 100000 := (i 0).isLt
  have hi1 : (i 1).val < 1 := (i 1).isLt
  have ht : (i 0).val / 10000 < cfg1.N := by rw [hN]; omega
  obtain ⟨a0, a1, b0, b1, c0, c1, d0, d1, e0, e1, f0, f1, g0, g1, o0, o1⟩ := idx_facts ⟨(i 0).val / 10000, ht⟩
  refine ⟨⟨(i 0).val / 10000, ht⟩, flush1_7 _, ?_⟩
  rw [mem_blk]
  intro a
  match a with
  | ⟨0, _⟩ =>
    show win1_7.index ⟨(i 0).val / 10000, ht⟩ (0 : Fin 2) * 10000 ≤ (i 0).val
      ∧ (i 0).val < win1_7.index ⟨(i 0).val / 10000, ht⟩ (0 : Fin 2) * 10000 + 10000
    rw [o0]; show (i 0).val / 10000 * 10000 ≤ (i 0).val ∧ (i 0).val < (i 0).val / 10000 * 10000 + 10000; omega
  | ⟨1, _⟩ =>
    show win1_7.index ⟨(i 0).val / 10000, ht⟩ (1 : Fin 2) * 1 ≤ (i 1).val
      ∧ (i 1).val < win1_7.index ⟨(i 0).val / 10000, ht⟩ (1 : Fin 2) * 1 + 1
    rw [o1]; omega

/-- When the region is left its output array holds the head of the layer of the arrays it was entered with. -/
theorem array_eq (c : Dev nD) :
    (dat1 V c).arrAt 7 cfg1.N
      = (Cert.Sage.head (Cert.Sage.layer (V c main_v43) (V c main_v24) (V c main_arg5) (V c main_arg7) (fun q => V c main_v44 (ix2 (0 : Fin 1) q)))
        (V c main_arg8) (V c main_v45 (ix2 (0 : Fin 1) (0 : Fin 1)))) :=
  (dat1 V c).arrAt_eq_of_cover 7 _ (fun t _ => flushed_eq V c t) cover

end Cert.KernelIdeal.Region1

end
-- ==== Proof.RefStages.lean ====
/-
  The reference's stages as the layer and the head.

  The reference computes, in order: the neighbourhood means of the table; the first layer of those means and the
  table; the neighbourhood means of the first layer's output; the second layer; the head.  Read at an index, each
  of its matrix products is a 64-term sum, each bias is the vector repeated down the rows, and the rectifier is a
  maximum with the zero word.  The reference adds the bias BEFORE the second contraction; regrouped (addition is
  commutative and associative on the extended reals) its layer is the layer of the specification.

  The neighbourhood mean is never opened: it is one function of a table and the edge list, the same function
  both times it is used, applied the second time to the first layer's output.
-/
import proofs.«140884_j77498389889595_1_alg».proof.Proof.Gen.ReferenceIdeal.Read
import proofs.«140884_j77498389889595_1_alg».proof.Proof.SageSpec

noncomputable section

namespace Cert.ReferenceIdeal.Stages

open Cert.ReferenceIdeal Cert.ReferenceIdeal.Read Idealize.ShloMosaic Idealize.ShloMosaic.ValueIdx

/-- The first layer's stage is the layer of the neighbourhood means and the table. -/
theorem layer1_eq (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v29 (F := Ideal) x0 x1 x2 x3 x4
      = Cert.Sage.layer (val_main_v22 (F := Ideal) x0 x1) x0 x2 x4 (fun q => x3 (ix1 q)) := by
  funext i
  obtain ⟨n, q, rfl⟩ : ∃ (n : Fin 100000) (q : Fin 64), i = ix2 n q := ⟨i 0, i 1, eq_ix2 i⟩
  rw [val_main_v29_apply, val_main_v28_apply, val_main_v26_apply, val_main_v23_apply, val_main_v25_apply,
    val_main_v24_apply, val_main_v27_apply, val_main_call0_v0_apply, val_main_call0_cst_apply]
  have e1 : ∀ k : Fin 64, lidx_main_v23 (ix2 n q) k = ix2 n k := fun k => funext fun a => Fin.ext (by
    match a with
    | ⟨0, _⟩ => rfl
    | ⟨1, _⟩ => rfl)
  have e2 : ∀ k : Fin 64, ridx_main_v23 (ix2 n q) k = ix2 k q := fun k => funext fun a => Fin.ext (by
    match a with
    | ⟨0, _⟩ => rfl
    | ⟨1, _⟩ => rfl)
  have e4 : ∀ k : Fin 64, lidx_main_v27 (ix2 n q) k = ix2 n k := fun k => funext fun a => Fin.ext (by
    match a with
    | ⟨0, _⟩ => rfl
    | ⟨1, _⟩ => rfl)
  have e5 : ∀ k : Fin 64, ridx_main_v27 (ix2 n q) k = ix2 k q := fun k => funext fun a => Fin.ext (by
    match a with
    | ⟨0, _⟩ => rfl
    | ⟨1, _⟩ => rfl)
  have e3 : idx_main_v24 (idx_main_v25 (ix2 n q)) = ix1 q := funext fun a => Fin.ext (by
    match a with
    | ⟨0, _⟩ => rfl)
  simp only [Ideal.maximumf_def, Ideal.addf_def, Ideal.ofBits_def, Ideal.ofBits_zero_f32, e1, e2, e3, e4, e5]
  rw [Cert.Sage.bias_regroup]
  rfl

/-- The second neighbourhood mean is the first's function of the table, applied to the first layer's output: the
    same host operations on the same edge list. -/
theorem mean2_eq (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v48 (F := Ideal) x0 x1 x2 x3 x4 = val_main_v22 (F := Ideal) (val_main_v29 (F := Ideal) x0 x1 x2 x3 x4) x1 := rfl

/-- The second layer's stage is the layer of the second means and the first layer's output. -/
theorem layer2_eq (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v55 (F := Ideal) x0 x1 x2 x3 x4 x5 x6 x7
      = Cert.Sage.layer (val_main_v48 (F := Ideal) x0 x1 x2 x3 x4) (val_main_v29 (F := Ideal) x0 x1 x2 x3 x4) x5 x7
          (fun q => x6 (ix1 q)) := by
  funext i
  obtain ⟨n, q, rfl⟩ : ∃ (n : Fin 100000) (q : Fin 64), i = ix2 n q := ⟨i 0, i 1, eq_ix2 i⟩
  rw [val_main_v55_apply, val_main_v54_apply, val_main_v52_apply, val_main_v49_apply, val_main_v51_apply,
    val_main_v50_apply, val_main_v53_apply, val_main_call1_v0_apply, val_main_call1_cst_apply]
  have e1 : ∀ k : Fin 64, lidx_main_v49 (ix2 n q) k = ix2 n k := fun k => funext fun a => Fin.ext (by
    match a with
    | ⟨0, _⟩ => rfl
    | ⟨1, _⟩ => rfl)
  have e2 : ∀ k : Fin 64, ridx_main_v49 (ix2 n q) k = ix2 k q := fun k => funext fun a => Fin.ext (by
    match a with
    | ⟨0, _⟩ => rfl
    | ⟨1, _⟩ => rfl)
  have e4 : ∀ k : Fin 64, lidx_main_v53 (ix2 n q) k = ix2 n k := fun k => funext fun a => Fin.ext (by
    match a with
    | ⟨0, _⟩ => rfl
    | ⟨1, _⟩ => rfl)
  have e5 : ∀ k : Fin 64, ridx_main_v53 (ix2 n q) k = ix2 k q := fun k => funext fun a => Fin.ext (by
    match a with
    | ⟨0, _⟩ => rfl
    | ⟨1, _⟩ => rfl)
  have e3 : idx_main_v50 (idx_main_v51 (ix2 n q)) = ix1 q := funext fun a => Fin.ext (by
    match a with
    | ⟨0, _⟩ => rfl)
  simp only [Ideal.maximumf_def, Ideal.addf_def, Ideal.ofBits_def, Ideal.ofBits_zero_f32, e1, e2, e3, e4, e5]
  rw [Cert.Sage.bias_regroup]
  rfl

/-- The head's stage is the head of the second layer's output, the weight column and the scalar. -/
theorem head_eq (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal))
    (x8 : (⟨S64x1, .f32⟩ : BufTy).Contents (Elt Ideal)) (x9 : (⟨S1, .f32⟩ : BufTy).Contents (Elt Ideal)) :
    val_main_v59 (F := Ideal) x0 x1 x2 x3 x4 x5 x6 x7 x8 x9
      = Cert.Sage.head (val_main_v55 (F := Ideal) x0 x1 x2 x3 x4 x5 x6 x7) x8 (x9 (ix1 (0 : Fin 1))) := by
  funext i
  obtain ⟨n, z, rfl⟩ : ∃ (n : Fin 100000) (z : Fin 1), i = ix2 n z := ⟨i 0, i 1, eq_ix2 i⟩
  rw [val_main_v59_apply, val_main_v56_apply, val_main_v58_apply, val_main_v57_apply]
  have e1 : ∀ k : Fin 64, lidx_main_v56 (ix2 n z) k = ix2 n k := fun k => funext fun a => Fin.ext (by
    match a with
    | ⟨0, _⟩ => rfl
    | ⟨1, _⟩ => rfl)
  have e2 : ∀ k : Fin 64, ridx_main_v56 (ix2 n z) k = ix2 k z := fun k => funext fun a => Fin.ext (by
    match a with
    | ⟨0, _⟩ => rfl
    | ⟨1, _⟩ => rfl)
  have e3 : idx_main_v57 (idx_main_v58 (ix2 n z)) = ix1 (0 : Fin 1) := funext fun a => Fin.ext (by
    match a with
    | ⟨0, _⟩ => rfl)
  simp only [Ideal.addf_def, e1, e2, e3]
  rfl

end Cert.ReferenceIdeal.Stages

end
-- ==== Proof.Region0.lean ====
/-
  The first layer's kernel: what its output array holds when the region is left, as one function of the arrays
  the region was entered with.

  The grid has ten points.  At point `t` the pipeline stages rows 10000·t … 10000·t + 9999 of the table of
  neighbourhood means and of the node table, the two whole weight matrices and the bias row, runs the body, and
  writes the body's block back to rows 10000·t … of the output.  The body's stored value at an entry of its block
  is the layer at the matching row of the arrays, so each written block is a block of ONE whole-array function,
  the layer of the entry arrays; the ten blocks tile the output, so the output ends holding that function.
-/
import proofs.«140884_j77498389889595_1_alg».proof.Proof.Gen.KernelIdeal.Frame
import proofs.«140884_j77498389889595_1_alg».proof.Proof.Payload
import proofs.«140884_j77498389889595_1_alg».proof.Proof.SageSpec
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the ten grid points: the two row-blocked inputs and the output sit at row
    block `t`, column block 0; the weights and the bias are one block each. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What grid point `t` writes back is block `t` of the layer of the arrays the region was entered with: the
    body's stored value at `(p, q)` reads row `10000·t + p` of the two tables, the whole weight matrices and the
    bias row, which is the layer at row `10000·t + p`, column `q`. -/
theorem flushed_eq (c : Dev nD) (t : Fin cfg0.N) :
    (dat0 V c).flushed 5 t = ((cfg0.win 5).blk t).view.read (Elt Ideal)
      (Cert.Sage.layer (V c main_v22) (V c main_arg0) (V c main_arg2) (V c main_arg4) (fun q => V c main_v23 (ix2 (0 : Fin 1) q))) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 j⟩
  refine (Payload.layer_apply (iblk0 V c 0 t) (iblk0 V c 1 t) (iblk0 V c 2 t) (iblk0 V c 4 t) (iblk0 V c 3 t) p q).trans ?_
  obtain ⟨a0, a1, b0, b1, c0, c1, d0, d1, e0, e1, f0, f1⟩ := idx_facts t
  have h0 : ∀ k : Fin 64, iblk0 V c 0 t (ix2 p k) = V c main_v22 (ix2 (n0 := 100000) ((((cfg0.win 5).blk t).view.emb (ix2 p q)) 0) k) := fun k => by
    show V c main_v22 (((cfg0.win 0).blk t).view.emb (ix2 p k)) = _
    refine congrArg _ (funext fun a => Fin.ext ?_)
    match a with
    | ⟨0, _⟩ => show win0_0.index t (0 : Fin 2) * 10000 + 1 * p.val = win0_5.index t (0 : Fin 2) * 10000 + 1 * p.val; omega
    | ⟨1, _⟩ => show win0_0.index t (1 : Fin 2) * 64 + 1 * k.val = k.val; omega
  have h1 : ∀ k : Fin 64, iblk0 V c 1 t (ix2 p k) = V c main_arg0 (ix2 (n0 := 100000) ((((cfg0.win 5).blk t).view.emb (ix2 p q)) 0) k) := fun k => by
    show V c main_arg0 (((cfg0.win 1).blk t).view.emb (ix2 p k)) = _
    refine congrArg _ (funext fun a => Fin.ext ?_)
    match a with
    | ⟨0, _⟩ => show win0_1.index t (0 : Fin 2) * 10000 + 1 * p.val = win0_5.index t (0 : Fin 2) * 10000 + 1 * p.val; omega
    | ⟨1, _⟩ => show win0_1.index t (1 : Fin 2) * 64 + 1 * k.val = k.val; omega
  have h2 : ∀ k : Fin 64, iblk0 V c 2 t (ix2 k q) = V c main_arg2 (ix2 (n1 := 64) k ((((cfg0.win 5).blk t).view.emb (ix2 p q)) 1)) := fun k => by
    show V c main_arg2 (((cfg0.win 2).blk t).view.emb (ix2 k q)) = _
    refine congrArg _ (funext fun a => Fin.ext ?_)
    match a with
    | ⟨0, _⟩ => show win0_2.index t (0 : Fin 2) * 64 + 1 * k.val = k.val; omega
    | ⟨1, _⟩ => show win0_2.index t (1 : Fin 2) * 64 + 1 * q.val = win0_5.index t (1 : Fin 2) * 64 + 1 * q.val; omega
  have h4 : ∀ k : Fin 64, iblk0 V c 4 t (ix2 k q) = V c main_arg4 (ix2 (n1 := 64) k ((((cfg0.win 5).blk t).view.emb (ix2 p q)) 1)) := fun k => by
    show V c main_arg4 (((cfg0.win 4).blk t).view.emb (ix2 k q)) = _
    refine congrArg _ (funext fun a => Fin.ext ?_)
    match a with
    | ⟨0, _⟩ => show win0_4.index t (0 : Fin 2) * 64 + 1 * k.val = k.val; omega
    | ⟨1, _⟩ => show win0_4.index t (1 : Fin 2) * 64 + 1 * q.val = win0_5.index t (1 : Fin 2) * 64 + 1 * q.val; omega
  have h3 : iblk0 V c 3 t (ix2 (0 : Fin 1) q) = V c main_v23 (ix2 (n1 := 64) (0 : Fin 1) ((((cfg0.win 5).blk t).view.emb (ix2 p q)) 1)) := by
    show V c main_v23 (((cfg0.win 3).blk t).view.emb (ix2 (0 : Fin 1) q)) = _
    refine congrArg _ (funext fun a => Fin.ext ?_)
    match a with
    | ⟨0, _⟩ => show win0_3.index t (0 : Fin 2) * 1 + 1 * 0 = 0; omega
    | ⟨1, _⟩ => show win0_3.index t (1 : Fin 2) * 64 + 1 * q.val = win0_5.index t (1 : Fin 2) * 64 + 1 * q.val; omega
  simp only [h0, h1, h2, h3, h4]
  rfl

/-- An index of the output array is in point `t`'s block iff each coordinate is in the block's range on its axis. -/
theorem mem_blk (t : Fin cfg0.N) (i : S100000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v24).slice (win0_5.rect t)).set ↔ _
  rw [View.set_slice_whole, Rect.mem_set_unit]
  exact Iff.rfl

/-- The ten blocks of 10000 rows tile the 100000 rows: row `r` is in block `r / 10000`. -/
theorem cover (i : S100000x64.Idx) :
    ∃ t : Fin cfg0.N, (cfg0.win 5).flush t = true ∧ i ∈ ((cfg0.win 5).blk t).view.set := by
  have hN : cfg0.N = 10 := N_0
  have hi0 : (i 0).val < 100000 := (i 0).isLt
  have hi1 : (i 1).val < 64 := (i 1).isLt
  have ht : (i 0).val / 10000 < cfg0.N := by rw [hN]; omega
  obtain ⟨a0, a1, b0, b1, c0, c1, d0, d1, e0, e1, f0, f1⟩ := idx_facts ⟨(i 0).val / 10000, ht⟩
  refine ⟨⟨(i 0).val / 10000, ht⟩, flush0_5 _, ?_⟩
  rw [mem_blk]
  intro a
  match a with
  | ⟨0, _⟩ =>
    show win0_5.index ⟨(i 0).val / 10000, ht⟩ (0 : Fin 2) * 10000 ≤ (i 0).val
      ∧ (i 0).val < win0_5.index ⟨(i 0).val / 10000, ht⟩ (0 : Fin 2) * 10000 + 10000
    rw [f0]; show (i 0).val / 10000 * 10000 ≤ (i 0).val ∧ (i 0).val < (i 0).val / 10000 * 10000 + 10000; omega
  | ⟨1, _⟩ =>
    show win0_5.index ⟨(i 0).val / 10000, ht⟩ (1 : Fin 2) * 64 ≤ (i 1).val
      ∧ (i 1).val < win0_5.index ⟨(i 0).val / 10000, ht⟩ (1 : Fin 2) * 64 + 64
    rw [f1]; omega

/-- When the region is left its output array holds the layer of the arrays it was entered with. -/
theorem array_eq (c : Dev nD) :
    (dat0 V c).arrAt 5 cfg0.N
      = Cert.Sage.layer (V c main_v22) (V c main_arg0) (V c main_arg2) (V c main_arg4) (fun q => V c main_v23 (ix2 (0 : Fin 1) q)) :=
  (dat0 V c).arrAt_eq_of_cover 5 _ (fun t _ => flushed_eq V c t) cover

end Cert.KernelIdeal.Region0

end
-- ==== Proof.KernelStagesA.lean ====
/-
  The idealized kernel up to the end of its first region, as functions of the launch arguments.

  Before the first region the host forms the neighbourhood means of the node table: the same operations, on the
  same edge list, as the reference's, so the table of means the region is entered with IS the reference's stage
  of the table and the edge list (the two programs' texts agree there, and the equation is closed by unfolding).
  The other arrays the region reads are arguments, untouched by the host operations, and the bias vector reshaped
  to one row.  When the region is left its output array holds the layer of those (the region's own module), which
  is the reference's first-layer stage.
-/
import proofs.«140884_j77498389889595_1_alg».proof.Proof.Gen.KernelIdeal.Frame
import proofs.«140884_j77498389889595_1_alg».proof.Proof.Gen.ReferenceIdeal.Read
import proofs.«140884_j77498389889595_1_alg».proof.Proof.Region0
import proofs.«140884_j77498389889595_1_alg».proof.Proof.RefStages
import Idealize.ShloMosaic.Lib.Pipeline.Value

set_option maxRecDepth 16384

noncomputable section

namespace Cert.KernelIdeal.StagesA

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.StableHlo

variable (m : (ℓ : Loc nD τ sig) → Buf (Elt Ideal) ℓ) (ρ : Dev nD → PrngReg)

set_option maxHeartbeats 8000000 in
/-- The table of neighbourhood means the first region is entered with is the reference's stage of the launch
    table and edge list. -/
theorem entry0_mean (c : Dev nD) :
    V1 m ρ c main_v22 = Cert.ReferenceIdeal.Read.val_main_v22 (F := Ideal) (m ((c : Thread nD τ).loc main_arg0)) (m ((c : Thread nD τ).loc main_arg1)) := by
  show StableHlo.after hostOps0 (W0 m ρ c) (Proc.devRef .tc main_v22) = _
  after_results_simp
  rfl

set_option maxHeartbeats 8000000 in
theorem entry0_arg0 (c : Dev nD) : V1 m ρ c main_arg0 = (m ((c : Thread nD τ).loc main_arg0)) := by
  show StableHlo.after hostOps0 (W0 m ρ c) (Proc.devRef .tc main_arg0) = _
  after_results_simp

set_option maxHeartbeats 8000000 in
theorem entry0_arg2 (c : Dev nD) : V1 m ρ c main_arg2 = (m ((c : Thread nD τ).loc main_arg2)) := by
  show StableHlo.after hostOps0 (W0 m ρ c) (Proc.devRef .tc main_arg2) = _
  after_results_simp

set_option maxHeartbeats 8000000 in
theorem entry0_arg4 (c : Dev nD) : V1 m ρ c main_arg4 = (m ((c : Thread nD τ).loc main_arg4)) := by
  show StableHlo.after hostOps0 (W0 m ρ c) (Proc.devRef .tc main_arg4) = _
  after_results_simp

set_option maxHeartbeats 8000000 in
/-- The bias row the first region is entered with is the bias vector, reshaped. -/
theorem entry0_bias (c : Dev nD) :
    V1 m ρ c main_v23 = shapeCast S1x64 (m ((c : Thread nD τ).loc main_arg3)) shapeCasts_S64_S1x64 := by
  show StableHlo.after hostOps0 (W0 m ρ c) (Proc.devRef .tc main_v23) = _
  after_results_simp
  rfl

/-- A vector reshaped to one row, read at `(0, q)`, is the vector at `q`. -/
theorem row_apply (v : S64.Idx → Ideal .f32) (q : Fin 64) :
    shapeCast S1x64 v shapeCasts_S64_S1x64 (ix2 (0 : Fin 1) q) = v (ix1 q) := by
  refine (shapeCast_addUnit_apply ![64] v shapeCasts_S64_S1x64 (ix2 (0 : Fin 1) q)).trans ?_
  exact congrArg v (funext fun a => by match a with | ⟨0, _⟩ => rfl)

/-- When the first region is left, its output array holds the reference's first-layer stage of the launch
    arguments. -/
theorem exit0_layer (c : Dev nD) :
    W2 m ρ c (Proc.devRef .tc main_v24)
      = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ?_
  refine (Region0.array_eq (V1 m ρ) c).trans ?_
  rw [entry0_mean, entry0_arg0, entry0_arg2, entry0_arg4, entry0_bias, Cert.ReferenceIdeal.Stages.layer1_eq]
  refine congrArg (Cert.Sage.layer _ _ _ _) (funext fun q => ?_)
  exact row_apply _ q

end Cert.KernelIdeal.StagesA

end
-- ==== Proof.KernelStagesB.lean ====
/-
  The idealized kernel from the end of its first region to its result, as functions of the launch arguments.

  Between the regions the host forms the neighbourhood means again, now of the first region's output, with the same
  operations on the same edge list (its two index vectors were computed before the first region and are still
  there: a region changes only its own arrays).  So the table of means the second region is entered with is the
  reference's second-mean stage; the other arrays it reads are the first region's output, arguments, the second
  bias reshaped to a row and the head's scalar reshaped to a 1×1 block.  When the second region is left its output
  is the head of the layer of those: the reference's head stage.  One reshape makes it the result.
-/
import proofs.«140884_j77498389889595_1_alg».proof.Proof.Gen.KernelIdeal.Frame
import proofs.«140884_j77498389889595_1_alg».proof.Proof.Gen.ReferenceIdeal.Read
import proofs.«140884_j77498389889595_1_alg».proof.Proof.Region1
import proofs.«140884_j77498389889595_1_alg».proof.Proof.RefStages
import proofs.«140884_j77498389889595_1_alg».proof.Proof.KernelStagesA
import Idealize.ShloMosaic.Lib.Pipeline.Value

set_option maxRecDepth 16384

noncomputable section

namespace Cert.KernelIdeal.StagesB

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.StableHlo

variable (m : (ℓ : Loc nD τ sig) → Buf (Elt Ideal) ℓ) (ρ : Dev nD → PrngReg)

set_option maxHeartbeats 8000000 in
/-- The first index vector of the edge list, as the second host stretch finds it. -/
theorem kept_v1 (c : Dev nD) :
    W2 m ρ c (Proc.devRef .tc main_v1)
      = shapeCast S1600000 (extractStridedSlice S1x1600000 ![0, 0] (m ((c : Thread nD τ).loc main_arg1)) slices_S2x1600000_S1x1600000_0_0)
          shapeCasts_S1x1600000_S1600000 := by
  refine (W2_of_ne m ρ c main_v1 (by decide)).trans ?_
  show StableHlo.after hostOps0 (W0 m ρ c) (Proc.devRef .tc main_v1) = _
  after_results_simp
  rfl

set_option maxHeartbeats 8000000 in
/-- The second index vector of the edge list, as the second host stretch finds it. -/
theorem kept_v3 (c : Dev nD) :
    W2 m ρ c (Proc.devRef .tc main_v3)
      = shapeCast S1600000 (extractStridedSlice S1x1600000 ![1, 0] (m ((c : Thread nD τ).loc main_arg1)) slices_S2x1600000_S1x1600000_1_0)
          shapeCasts_S1x1600000_S1600000 := by
  refine (W2_of_ne m ρ c main_v3 (by decide)).trans ?_
  show StableHlo.after hostOps0 (W0 m ρ c) (Proc.devRef .tc main_v3) = _
  after_results_simp
  rfl

set_option maxHeartbeats 8000000 in
theorem kept_arg5 (c : Dev nD) : W2 m ρ c (Proc.devRef .tc main_arg5) = (m ((c : Thread nD τ).loc main_arg5)) := by
  refine (W2_of_ne m ρ c main_arg5 (by decide)).trans ?_
  show StableHlo.after hostOps0 (W0 m ρ c) (Proc.devRef .tc main_arg5) = _
  after_results_simp

set_option maxHeartbeats 8000000 in
theorem kept_arg6 (c : Dev nD) : W2 m ρ c (Proc.devRef .tc main_arg6) = (m ((c : Thread nD τ).loc main_arg6)) := by
  refine (W2_of_ne m ρ c main_arg6 (by decide)).trans ?_
  show StableHlo.after hostOps0 (W0 m ρ c) (Proc.devRef .tc main_arg6) = _
  after_results_simp

set_option maxHeartbeats 8000000 in
theorem kept_arg7 (c : Dev nD) : W2 m ρ c (Proc.devRef .tc main_arg7) = (m ((c : Thread nD τ).loc main_arg7)) := by
  refine (W2_of_ne m ρ c main_arg7 (by decide)).trans ?_
  show StableHlo.after hostOps0 (W0 m ρ c) (Proc.devRef .tc main_arg7) = _
  after_results_simp

set_option maxHeartbeats 8000000 in
theorem kept_arg8 (c : Dev nD) : W2 m ρ c (Proc.devRef .tc main_arg8) = (m ((c : Thread nD τ).loc main_arg8)) := by
  refine (W2_of_ne m ρ c main_arg8 (by decide)).trans ?_
  show StableHlo.after hostOps0 (W0 m ρ c) (Proc.devRef .tc main_arg8) = _
  after_results_simp

set_option maxHeartbeats 8000000 in
theorem kept_arg9 (c : Dev nD) : W2 m ρ c (Proc.devRef .tc main_arg9) = (m ((c : Thread nD τ).loc main_arg9)) := by
  refine (W2_of_ne m ρ c main_arg9 (by decide)).trans ?_
  show StableHlo.after hostOps0 (W0 m ρ c) (Proc.devRef .tc main_arg9) = _
  after_results_simp

set_option maxHeartbeats 8000000 in
/-- The table of neighbourhood means the second region is entered with is the reference's second-mean stage. -/
theorem entry1_mean (c : Dev nD) :
    V3 m ρ c main_v43 = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v43) = _
  after_results_simp
  rw [kept_v1, kept_v3, StagesA.exit0_layer, Cert.ReferenceIdeal.Stages.mean2_eq]
  rfl

set_option maxHeartbeats 8000000 in
/-- The second region reads the first region's output as that region left it. -/
theorem entry1_prev (c : Dev nD) :
    V3 m ρ c main_v24 = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v24) = _
  after_results_simp
  exact StagesA.exit0_layer m ρ c

set_option maxHeartbeats 8000000 in
theorem entry1_arg5 (c : Dev nD) : V3 m ρ c main_arg5 = (m ((c : Thread nD τ).loc main_arg5)) := by
  show StableHlo.after hostOps1 (W2 m ρ c) (Proc.devRef .tc main_arg5) = _
  after_results_simp
  exact kept_arg5 m ρ c

set_option maxHeartbeats 8000000 in
theorem entry1_arg7 (c : Dev nD) : V3 m ρ c main_arg7 = (m ((c : Thread nD τ).loc main_arg7)) := by
  show StableHlo.after hostOps1 (W2 m ρ c) (Proc.devRef .tc main_arg7) = _
  after_results_simp
  exact kept_arg7 m ρ c

set_option maxHeartbeats 8000000 in
theorem entry1_arg8 (c : Dev nD) : V3 m ρ c main_arg8 = (m ((c : Thread nD τ).loc main_arg8)) := by
  show StableHlo.after hostOps1 (W2 m ρ c) (Proc.devRef .tc main_arg8) = _
  after_results_simp
  exact kept_arg8 m ρ c

set_option maxHeartbeats 8000000 in
/-- The second bias row is the second bias vector, reshaped. -/
theorem entry1_bias (c : Dev nD) :
    V3 m ρ c main_v44 = shapeCast S1x64 (m ((c : Thread nD τ).loc main_arg6)) shapeCasts_S64_S1x64 := by
  show StableHlo.after hostOps1 (W2 m ρ c) (Proc.devRef .tc main_v44) = _
  after_results_simp
  rw [kept_arg6]
  rfl

set_option maxHeartbeats 8000000 in
/-- The head's scalar block is the one-entry vector, reshaped. -/
theorem entry1_scalar (c : Dev nD) :
    V3 m ρ c main_v45 = shapeCast S1x1 (m ((c : Thread nD τ).loc main_arg9)) shapeCasts_S1_S1x1 := by
  show StableHlo.after hostOps1 (W2 m ρ c) (Proc.devRef .tc main_v45) = _
  after_results_simp
  rw [kept_arg9]
  rfl

/-- A one-entry vector reshaped to a 1×1 block, read at its entry, is the vector's entry. -/
theorem scalar_apply (v : S1.Idx → Ideal .f32) :
    shapeCast S1x1 v shapeCasts_S1_S1x1 (ix2 (0 : Fin 1) (0 : Fin 1)) = v (ix1 (0 : Fin 1)) := by
  refine (shapeCast_addUnit_apply ![1] v shapeCasts_S1_S1x1 (ix2 (0 : Fin 1) (0 : Fin 1))).trans ?_
  exact congrArg v (funext fun a => by match a with | ⟨0, _⟩ => rfl)

/-- When the second region is left, its output array holds the reference's head stage of the launch arguments. -/
theorem exit1_head (c : Dev nD) :
    W4 m ρ c (Proc.devRef .tc main_v46) = Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 7).trans ?_
  refine (Region1.array_eq (V3 m ρ) c).trans ?_
  rw [entry1_mean, entry1_prev, entry1_arg5, entry1_arg7, entry1_arg8, entry1_bias, entry1_scalar,
    Cert.ReferenceIdeal.Stages.head_eq, Cert.ReferenceIdeal.Stages.layer2_eq]
  have hb : (fun q : Fin 64 => shapeCast S1x64 (m ((c : Thread nD τ).loc main_arg6)) shapeCasts_S64_S1x64 (ix2 (0 : Fin 1) q))
      = fun q : Fin 64 => (m ((c : Thread nD τ).loc main_arg6)) (ix1 q) := funext fun q => StagesA.row_apply _ q
  have hs : shapeCast S1x1 (m ((c : Thread nD τ).loc main_arg9)) shapeCasts_S1_S1x1 (ix2 (0 : Fin 1) (0 : Fin 1)) = (m ((c : Thread nD τ).loc main_arg9)) (ix1 (0 : Fin 1)) :=
    scalar_apply _
  rw [hb, hs]

set_option maxHeartbeats 8000000 in
/-- The result buffer's last contents are the reference's result stage of the launch arguments. -/
theorem result_eq (c : Dev nD) :
    W5 m ρ c (Proc.devRef .tc main_v47) = Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps2 (W4 m ρ c) (Proc.devRef .tc main_v47) = _
  after_results
  rw [exit1_head]
  rfl

end Cert.KernelIdeal.StagesB

end
-- ==== Proof.lean ====
/-
  Two programs compute the same two-layer message-passing network with a linear head over a graph of 100000
  nodes and 1600000 edges, 64 features per node; at the exact reading (floats as extended reals, every operation
  exact, a change of float format the identity) their results are equal, element by element.

  Both form the neighbourhood mean of a node table the same way: gather the source rows along the edge list, add
  them into the target rows, and divide each row by the larger of its in-degree and one.  Write that map as
  `mean`.  Both then compute

      h₁ = layer(mean x, x; w1_l, w1_r, b1),   h₂ = layer(mean h₁, h₁; w2_l, w2_r, b2),   result = h₂ · w_head + b_head,

  where layer(a, x; wl, wr, b)[n,c] = max(Σₖ a[n,k]·wl[k,c] + Σₖ x[n,k]·wr[k,c] + b[c], 0).  One program evaluates
  each layer and the head on the host over whole tables.  The other keeps `mean` on the host and evaluates a layer
  (the second time together with the head) in a kernel that walks the rows in ten blocks of 10000, narrowing its
  operands to a 16-bit format before each product and adding the bias after the second product instead of before.
  Narrowing is the identity at the exact reading; the blocks tile the rows and each is a block of the one
  whole-table function; the order of the three summands is immaterial because addition on the extended reals is
  commutative and associative, with no exception at the infinities.  So no finiteness of the inputs is used.

  The pieces: SageSpec (the layer and the head as index-by-index functions, and the regrouping law), BlockDot and
  Payload (a kernel body's stored value at one entry of its block), Region0 and Region1 (a region's output array as
  one function of the arrays it is entered with), RefStages (the host program's stages as the layer and the head),
  KernelRun (the kernel program's run, read at its result), KernelStagesA and KernelStagesB (the contents of every
  buffer the kernel program passes from segment to segment, as the host program's stages of the launch
  arguments).  `mean` is never opened: it is the same host computation in both programs.
-/
import proofs.«140884_j77498389889595_1_alg».proof.Defs
import proofs.«140884_j77498389889595_1_alg».proof.Proof.Gen.Kernel
import proofs.«140884_j77498389889595_1_alg».proof.Proof.Gen.Kernel.Skeleton
import proofs.«140884_j77498389889595_1_alg».proof.Proof.Gen.Kernel.Launch
import proofs.«140884_j77498389889595_1_alg».proof.Proof.Gen.Kernel.Points
import proofs.«140884_j77498389889595_1_alg».proof.Proof.Gen.Kernel.Frame
import proofs.«140884_j77498389889595_1_alg».proof.Proof.Gen.KernelIdeal
import proofs.«140884_j77498389889595_1_alg».proof.Proof.Gen.KernelIdeal.Skeleton
import proofs.«140884_j77498389889595_1_alg».proof.Proof.Gen.KernelIdeal.Launch
import proofs.«140884_j77498389889595_1_alg».proof.Proof.Gen.KernelIdeal.Points
import proofs.«140884_j77498389889595_1_alg».proof.Proof.Gen.KernelIdeal.Frame
import proofs.«140884_j77498389889595_1_alg».proof.Proof.Gen.ReferenceIdeal
import proofs.«140884_j77498389889595_1_alg».proof.Proof.Gen.Pre_finite_inputs
import proofs.«140884_j77498389889595_1_alg».proof.Proof.Gen.ReferenceIdeal.Run
import proofs.«140884_j77498389889595_1_alg».proof.Proof.Gen.ReferenceIdeal.Read
import proofs.«140884_j77498389889595_1_alg».proof.Proof.KernelRun
import proofs.«140884_j77498389889595_1_alg».proof.Proof.KernelStagesB
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its exact reading. -/
theorem frame_kernelIdeal : Cert.frame_KernelIdeal := fun m ρ _ => Cert.KernelIdeal.Gen.frame m ρ

/-- The host program runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The exact reading rewrote no operation of the kernel program: nothing to preserve. -/
theorem preserves : Cert.preserves_Kernel_KernelIdeal := trivial

/-- From memories that agree on the ten arguments both programs end with the same result: the host program's
    result stage of the arguments.  The kernel program reaches it segment by segment; the host program's own run
    ends at it, read at arguments that agree with the kernel program's. -/
theorem algebraic : Cert.algebraic_KernelIdeal_ReferenceIdeal := by
  intro m ρ m' ρ' _ hagree
  refine ⟨fun c => Cert.ReferenceIdeal.Read.val_main_v60 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.StagesB.result_eq m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v60_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
